-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8192x128 .f32) (main_arg1 : FVec F S128x128 .f32) (main_arg2 : FVec F S128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S8192x128 : Shape := ⟨2, ![8192, 128]⟩
abbrev S128x128 : Shape := ⟨2, ![128, 128]⟩
abbrev S8192x128x128 : Shape := ⟨3, ![8192, 128, 128]⟩
abbrev S256x128 : Shape := ⟨2, ![256, 128]⟩
abbrev S256x128x128 : Shape := ⟨3, ![256, 128, 128]⟩
abbrev S256x128x1 : Shape := ⟨3, ![256, 128, 1]⟩
abbrev S1x128x128 : Shape := ⟨3, ![1, 128, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S8192x128x128, .f32⟩
  | .local _ .vmem, ⟨0, _⟩ => ⟨S256x128, .f32⟩
  | .local _ .vmem, ⟨1, _⟩ => ⟨S256x128, .f32⟩
  | .local _ .vmem, ⟨2, _⟩ => ⟨S128x128, .f32⟩
  | .local _ .vmem, ⟨3, _⟩ => ⟨S128x128, .f32⟩
  | .local _ .vmem, ⟨4, _⟩ => ⟨S256x128x128, .f32⟩
  | .local _ .vmem, ⟨5, _⟩ => ⟨S256x128x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S128x128_S128x128_0_0 : ∀ a, (![0, 0] : Fin 2 → Nat) a + S128x128.size a ≤ S128x128.size a
  h_S128x128 : 0 < S128x128.numel
  shapeCasts_S256x128_S256x128x1 : S256x128.ShapeCasts S256x128x1
  shapeCasts_S128x128_S1x128x128 : S128x128.ShapeCasts S1x128x128
  broadcasts_S256x128x1_S256x128x128 : S256x128x1.Broadcasts S256x128x128
  broadcasts_S1x128x128_S256x128x128 : S1x128x128.Broadcasts S256x128x128
  inb_S256x128x128_S256x128x128_0_0_0 : ∀ a, (![0, 0, 0] : Fin 3 → Nat) a + S256x128x128.size a ≤ S256x128x128.size a
  h_S256x128x128 : 0 < S256x128x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128x128.size a ≤ S8192x128x128.size a
  hwx0_3 : ∀ i : grid0.Coords, EltTy.bits .f32 = 32 ∨ (Rect.block (s := S8192x128x128) S256x128x128.size (cc0_transform_3 i) (hinb0_3 i)).WholeWords (EltTy.packing .f32)

variable [Facts₀]

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S8192x128x1 : Shape := ⟨3, ![8192, 128, 1]⟩
abbrev S1x128x128 : Shape := ⟨3, ![1, 128, 128]⟩
abbrev S8192x128x128 : Shape := ⟨3, ![8192, 128, 128]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S128x128, .f32⟩
  | .hbm, ⟨3, _⟩ => ⟨S8192x128x1, .f32⟩
  | .hbm, ⟨4, _⟩ => ⟨S1x128x128, .f32⟩
  | .hbm, ⟨5, _⟩ => ⟨S8192x128x128, .f32⟩
  | .hbm, ⟨6, _⟩ => ⟨S8192x128x128, .f32⟩
  | .hbm, ⟨7, _⟩ => ⟨S8192x128x128, .f32⟩
  | .hbm, ⟨8, _⟩ => ⟨S1x128x128, .f32⟩
  | .hbm, ⟨9, _⟩ => ⟨S8192x128x128, .f32⟩
  | .hbm, ⟨10, _⟩ => ⟨S8192x128x128, .f32⟩
  | .hbm, ⟨11, _⟩ => ⟨S_, .f32⟩
  | .hbm, ⟨12, _⟩ => ⟨S8192x128x128, .f32⟩
  | .hbm, ⟨13, _⟩ => ⟨S8192x128x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_cst : Ref sig .tc := ⟨.hbm, 11, rfl⟩
abbrev main_call0_v0 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S8192x128_S8192x128x1_0_1 : S8192x128.BroadcastsInDim S8192x128x1 (![0, 1] : Fin 2 → Fin S8192x128x1.rank)
  bcast_S128x128_S1x128x128_1_2 : S128x128.BroadcastsInDim S1x128x128 (![1, 2] : Fin 2 → Fin S1x128x128.rank)
  bcast_S8192x128x1_S8192x128x128_0_1_2 : S8192x128x1.BroadcastsInDim S8192x128x128 (![0, 1, 2] : Fin 3 → Fin S8192x128x128.rank)
  bcast_S1x128x128_S8192x128x128_0_1_2 : S1x128x128.BroadcastsInDim S8192x128x128 (![0, 1, 2] : Fin 3 → Fin S8192x128x128.rank)
  bcast_S_S8192x128x128 : S_.BroadcastsInDim S8192x128x128 (![] : Fin 0 → Fin S8192x128x128.rank)

variable [Facts₀]

class Facts : Prop extends Facts₀ where

variable [Facts]
-- ==== Proof.AffineRelu.lean ====
/-
  The function both programs compute.

  The layer takes a batch `x` of 8192 rows of 128 scalar features and, for every feature `i`, a weight row
  `W[i, ·]` and a bias row `b[i, ·]` of length 128. Feature `i` of row `r` is sent through its own affine map
  and a rectifier:

      out[r, i, d] = max (x[r, i] · W[i, d] + b[i, d], 0),

  an array of shape 8192 × 128 × 128. An entry of the output depends on exactly ONE entry of each argument, and
  it is built from them by one product, one sum and one maximum, in that order. Both programs apply these three
  operations in this order to these operands, so they agree operation by operation: no law of the extended
  reals (commutativity, distributivity, a cancellation) is used anywhere, and so the finiteness of the inputs
  is never needed.
-/
import Idealize.ShloMosaic.Lib.ValueIdx

noncomputable section

namespace Cert.AffineRelu

open Idealize.ShloMosaic Idealize.ShloMosaic.ValueIdx

variable {F : FTy → Type} [FloatOps F]

/-- `out[r, i, d] = max (x[r, i] · W[i, d] + b[i, d], 0)`, entry by entry: entry `(r, i, d)` reads `x` at
    `(r, i)` and reads `W` and `b` at `(i, d)`. The zero is the float whose word is all zero bits. -/
def affineRelu (x : (⟨2, ![8192, 128]⟩ : Shape).Idx → Elt F .f32) (W b : (⟨2, ![128, 128]⟩ : Shape).Idx → Elt F .f32) :
    (⟨3, ![8192, 128, 128]⟩ : Shape).Idx → Elt F .f32 :=
  fun j => FloatOps.maximumf
    (FloatOps.addf (FloatOps.mulf (x (ix2 (j 0 : Fin 8192) (j 1 : Fin 128))) (W (ix2 (j 1 : Fin 128) (j 2 : Fin 128))))
      (b (ix2 (j 1 : Fin 128) (j 2 : Fin 128))))
    (FloatOps.ofBits .f32 0x00000000#32)

end Cert.AffineRelu

end
-- ==== Proof.KernelRowBlocks.lean ====
/-
  The kernel's output array is `affineRelu` of its arguments.

  The kernel cuts the 8192 rows of the batch into 32 blocks of 256 rows. At grid point `t` it is handed rows
  `256·t … 256·t + 255` of `x` (a 256 × 128 block) and the whole of `W` and of `b` (their one 128 × 128 block),
  and it writes the 256 × 128 × 128 block of the output that holds the same rows. Inside a block, entry
  `(p, i, d)` is `max (xblock[p, i] · W[i, d] + b[i, d], 0)`: the body gives `x`'s block a third axis and `W`'s and
  `b`'s a first one, repeats them to the block's shape, and multiplies, adds and takes the maximum entry by entry.

  Three steps lead from this to the whole array.
  * One block (`block_entry`): the buffer the body leaves, read at `(p, i, d)`, in terms of the three blocks it loaded.
  * One grid point (`written_block`): row `p` of `x`'s block at point `t` is row `256·t + p` of `x`, and that is also
    where entry `p` of the output's block lies in the output; `W` and `b` are read where they are. So what point
    `t` writes back is block `t` of `affineRelu x W b`.
  * All grid points (`every_entry_written`): row `r` of the output lies in block `r / 256`, and the other two
    axes are not cut, so every entry of the output is written by some point. An array all of whose entries were
    written from blocks of ONE function holds that function (`output_eq`).
-/
import proofs.«150320_j65764539236820_2_alg».proof.Proof.Gen.KernelIdeal.Value
import proofs.«150320_j65764539236820_2_alg».proof.Proof.AffineRelu
import Idealize.ShloMosaic.Lib.Pipeline.Value
import Idealize.ShloMosaic.Lib.ValueIdx

noncomputable section

namespace Cert.KernelIdeal.RowBlocks

open Cert.KernelIdeal Cert.KernelIdeal.Gen Idealize.ShloMosaic Idealize.ShloMosaic.TcCoe Idealize.SL.Sem
open Idealize.ShloMosaic.Pipeline (Dat)
open Idealize.ShloMosaic.ValueIdx Cert.AffineRelu

variable {F : FTy → Type} [FloatOps F]
variable (m : (ℓ : Loc nD τ sig) → Buf (Elt F) ℓ) (ρ : Dev nD → PrngReg)

/-! ## One block -/

/-- The body reads each of its buffers from the corner: the offsets of its loads are all zero. -/
theorem corner2 : (![0, 0] : Fin 2 → Nat) = fun _ => 0 := funext fun a => by fin_cases a <;> rfl

/-- What the body leaves in the output's buffer, at entry `y = (p, i, d)` of the block, from the blocks `x0` of `x`,
    `x1` of `W` and `x2` of `b` it loaded: `max (x0[p, i] · x1[i, d] + x2[i, d], 0)`. The body's one store fills the
    buffer, and its value at an entry is the entrywise product, sum and maximum of the repeated blocks. -/
theorem block_entry (x0 : Vec F S256x128 .f32) (x1 x2 : Vec F S128x128 .f32) (y : S256x128x128.Idx) :
    out0_3 x0 x1 x2 y
      = FloatOps.maximumf (FloatOps.addf (FloatOps.mulf (x0 (Value.ix3_0 y)) (x1 (Value.ix3_1 y))) (x2 (Value.ix3_2 y)))
          (FloatOps.ofBits .f32 0x00000000#32) := by
  unfold out0_3
  simp only [View.ld_unit_zero (S := S256x128) corner2, View.ld_unit_zero (S := S128x128) corner2]
  exact Value.canon3_eq x0 x1 x2 y

/-! ## One grid point -/

/-- Where the blocks lie, for each of the 32 grid points (checked point by point): the block of `x` and the block of
    the output have the same position along the rows; `x`'s block is not moved along the features; `W` and `b` have
    one block each, at the origin; the output's block is not moved along its last two axes. -/
theorem block_positions : ∀ t : Fin cfg0.N,
    win0_0.index t (0 : Fin 2) = win0_3.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0 :=
  (by decide +kernel : ∀ t : Fin grid0.N, _)

/-- What grid point `t` writes back is block `t` of `affineRelu` of the three argument arrays. At entry
    `y = (p, i, d)` of the block: the entry lies at `(256·t + p, i, d)` in the output; `x`'s block at `(p, i)` is `x`
    at `(256·t + p, i)`; `W`'s and `b`'s blocks at `(i, d)` are `W` and `b` at `(i, d)`. -/
theorem written_block (c : Dev nD) (t : Fin cfg0.N) :
    (dats m 0 c).flushed 3 t
      = ((cfg0.win 3).blk t).view.read (Elt F) (affineRelu (V m c main_arg0) (V m c main_arg1) (V m c main_arg2)) := by
  rw [Value.flushed3]
  obtain ⟨e0, e1, e2, e3, e4, e5, e6, e7⟩ := block_positions t
  funext y
  have hy0 : (y 0).val < 256 := (y 0).isLt
  have hy1 : (y 1).val < 128 := (y 1).isLt
  have hy2 : (y 2).val < 128 := (y 2).isLt
  show out0_3 (iblk m c 0 t) (iblk m c 1 t) (iblk m c 2 t) y = _
  refine (block_entry (iblk m c 0 t) (iblk m c 1 t) (iblk m c 2 t) y).trans ?_
  show FloatOps.maximumf (FloatOps.addf (FloatOps.mulf
        (V m c main_arg0 (((cfg0.win 0).blk t).view.emb (Value.ix3_0 y)))
        (V m c main_arg1 (((cfg0.win 1).blk t).view.emb (Value.ix3_1 y))))
        (V m c main_arg2 (((cfg0.win 2).blk t).view.emb (Value.ix3_2 y))))
      (FloatOps.ofBits .f32 0x00000000#32)
    = FloatOps.maximumf (FloatOps.addf (FloatOps.mulf
        (V m c main_arg0 (ix2 ((((cfg0.win 3).blk t).view.emb y) 0 : Fin 8192) ((((cfg0.win 3).blk t).view.emb y) 1 : Fin 128)))
        (V m c main_arg1 (ix2 ((((cfg0.win 3).blk t).view.emb y) 1 : Fin 128) ((((cfg0.win 3).blk t).view.emb y) 2 : Fin 128))))
        (V m c main_arg2 (ix2 ((((cfg0.win 3).blk t).view.emb y) 1 : Fin 128) ((((cfg0.win 3).blk t).view.emb y) 2 : Fin 128))))
      (FloatOps.ofBits .f32 0x00000000#32)
  have hx : ((cfg0.win 0).blk t).view.emb (Value.ix3_0 y)
      = ix2 ((((cfg0.win 3).blk t).view.emb y) 0 : Fin 8192) ((((cfg0.win 3).blk t).view.emb y) 1 : Fin 128) := by
    funext a; apply Fin.ext
    match a with
    | ⟨0, _⟩ => show win0_0.index t (0 : Fin 2) * 256 + 1 * (y 0).val = win0_3.index t (0 : Fin 3) * 256 + 1 * (y 0).val; omega
    | ⟨1, _⟩ => show win0_0.index t (1 : Fin 2) * 128 + 1 * (y 1).val = win0_3.index t (1 : Fin 3) * 128 + 1 * (y 1).val; omega
  have hw : ((cfg0.win 1).blk t).view.emb (Value.ix3_1 y)
      = ix2 ((((cfg0.win 3).blk t).view.emb y) 1 : Fin 128) ((((cfg0.win 3).blk t).view.emb y) 2 : Fin 128) := by
    funext a; apply Fin.ext
    match a with
    | ⟨0, _⟩ => show win0_1.index t (0 : Fin 2) * 128 + 1 * (y 1).val = win0_3.index t (1 : Fin 3) * 128 + 1 * (y 1).val; omega
    | ⟨1, _⟩ => show win0_1.index t (1 : Fin 2) * 128 + 1 * (y 2).val = win0_3.index t (2 : Fin 3) * 128 + 1 * (y 2).val; omega
  have hb : ((cfg0.win 2).blk t).view.emb (Value.ix3_2 y)
      = ix2 ((((cfg0.win 3).blk t).view.emb y) 1 : Fin 128) ((((cfg0.win 3).blk t).view.emb y) 2 : Fin 128) := by
    funext a; apply Fin.ext
    match a with
    | ⟨0, _⟩ => show win0_2.index t (0 : Fin 2) * 128 + 1 * (y 1).val = win0_3.index t (1 : Fin 3) * 128 + 1 * (y 1).val; omega
    | ⟨1, _⟩ => show win0_2.index t (1 : Fin 2) * 128 + 1 * (y 2).val = win0_3.index t (2 : Fin 3) * 128 + 1 * (y 2).val; omega
  rw [hx, hw, hb]
  rfl

/-! ## All grid points -/

/-- An entry of the output lies in point `t`'s block exactly when each of its coordinates lies in the block's range
    along that axis: from the block's position times the block's extent, for the block's extent. -/
theorem mem_block (t : Fin cfg0.N) (j : S8192x128x128.Idx) :
    j ∈ ((cfg0.win 3).blk t).view.set
      ↔ ∀ a : Fin 3, win0_3.index t a * S256x128x128.size a ≤ (j a).val
          ∧ (j a).val < win0_3.index t a * S256x128x128.size a + S256x128x128.size a := by
  show j ∈ ((View.whole main_v0).slice (win0_3.rect t)).set ↔ _
  rw [View.set_slice_whole, Rect.mem_set_unit]
  exact Iff.rfl

/-- Every one of the 32 row blocks of the output is some grid point's (checked block by block). -/
theorem point_of_row_block : ∀ q : Fin 32, ∃ t : Fin cfg0.N, win0_3.index t = ![q.val, 0, 0] :=
  (by decide +kernel : ∀ q : Fin 32, ∃ t : Fin grid0.N, win0_3.index t = ![q.val, 0, 0])

/-- Every entry `(r, i, d)` of the output is written: it lies in the block of the point whose row block is `r / 256`. -/
theorem every_entry_written (j : S8192x128x128.Idx) :
    ∃ t : Fin cfg0.N, (cfg0.win 3).flush t = true ∧ j ∈ ((cfg0.win 3).blk t).view.set := by
  have hj0 : (j 0).val < 8192 := (j 0).isLt
  have hj1 : (j 1).val < 128 := (j 1).isLt
  have hj2 : (j 2).val < 128 := (j 2).isLt
  obtain ⟨t, ht⟩ := point_of_row_block ⟨(j 0).val / 256, by omega⟩
  have q0 : win0_3.index t (0 : Fin 3) = (j 0).val / 256 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 256 ≤ (j 0).val ∧ (j 0).val < win0_3.index t (0 : Fin 3) * 256 + 256; omega
  | ⟨1, _⟩ => show win0_3.index t (1 : Fin 3) * 128 ≤ (j 1).val ∧ (j 1).val < win0_3.index t (1 : Fin 3) * 128 + 128; omega
  | ⟨2, _⟩ => show win0_3.index t (2 : Fin 3) * 128 ≤ (j 2).val ∧ (j 2).val < win0_3.index t (2 : Fin 3) * 128 + 128; omega

/-- The output array after all 32 points: `affineRelu` of the argument arrays as the program was launched with them. -/
theorem output_eq (c : Dev nD) :
    (dats m 0 c).arrAt 3 cfg0.N
      = affineRelu (m ((c : Thread nD τ).loc main_arg0)) (m ((c : Thread nD τ).loc main_arg1)) (m ((c : Thread nD τ).loc main_arg2)) :=
  (dats m 0 c).arrAt_eq_of_cover 3 (affineRelu (V m c main_arg0) (V m c main_arg1) (V m c main_arg2))
    (fun t _ => written_block m c t) every_entry_written

/-- The kernel's run: every weakly fair execution ends, nothing faulting, with the output array at `affineRelu` of the
    arguments and the arguments unchanged. -/
theorem run : θ_run defs (onTc (τ := τ) (main (F := F))) ⟨m, fun _ => 0, ρ⟩ fun r => ∀ c : Dev nD,
      r.2.mem ((c : Thread nD τ).loc main_v0)
        = affineRelu (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (output_eq m c), (h c).2⟩) (Value.run_blocks m ρ)

end Cert.KernelIdeal.RowBlocks

end
-- ==== Proof.ReferenceBroadcasts.lean ====
/-
  The reference computes `affineRelu`.

  The reference spells `x[:, :, None] * W[None, :, :] + b[None, :, :]` with broadcasts: `x` is given a third
  axis of extent 1 and repeated 128 times along it, `W` and `b` are given a first axis of extent 1 and repeated
  8192 times along it, and the product, the sum and the maximum with a constant zero array are then taken entry
  by entry. A broadcast only COPIES entries: the entry `(r, i, d)` of the repeated `x` is `x[r, i]`, and the entry
  `(r, i, d)` of the repeated `W` (or `b`) is `W[i, d]`. So entry `(r, i, d)` of the result is
  `max (x[r, i] · W[i, d] + b[i, d], 0)`.
-/
import proofs.«150320_j65764539236820_2_alg».proof.Proof.Gen.ReferenceIdeal.Read
import proofs.«150320_j65764539236820_2_alg».proof.Proof.AffineRelu
import Idealize.ShloMosaic.Lib.ValueIdx

noncomputable section

namespace Cert.ReferenceIdeal.Broadcasts

open Cert.ReferenceIdeal Idealize.ShloMosaic Idealize.ShloMosaic.ValueIdx Cert.AffineRelu

variable {F : FTy → Type} [FloatOps F]

/-- Through the two broadcasts of `x`, entry `(r, i, d)` comes from `x[r, i]`. -/
theorem x_source (j : S8192x128x128.Idx) :
    Read.idx_main_v0 (Read.idx_main_v2 j) = ix2 (j 0 : Fin 8192) (j 1 : Fin 128) :=
  funext fun a => Fin.ext (by match a with | ⟨0, _⟩ => rfl | ⟨1, _⟩ => rfl)

/-- Through the two broadcasts of `W`, entry `(r, i, d)` comes from `W[i, d]`. -/
theorem w_source (j : S8192x128x128.Idx) :
    Read.idx_main_v1 (Read.idx_main_v3 j) = ix2 (j 1 : Fin 128) (j 2 : Fin 128) :=
  funext fun a => Fin.ext (by match a with | ⟨0, _⟩ => rfl | ⟨1, _⟩ => rfl)

/-- Through the two broadcasts of `b`, entry `(r, i, d)` comes from `b[i, d]`. -/
theorem b_source (j : S8192x128x128.Idx) :
    Read.idx_main_v5 (Read.idx_main_v6 j) = ix2 (j 1 : Fin 128) (j 2 : Fin 128) :=
  funext fun a => Fin.ext (by match a with | ⟨0, _⟩ => rfl | ⟨1, _⟩ => rfl)

/-- The reference's result is `affineRelu` of its arguments: read the result at an entry one operation at a time
    (the maximum, the sum, the product, then each chain of broadcasts down to the argument it copies from). -/
theorem result_eq (x : (⟨S8192x128, .f32⟩ : BufTy).Contents (Elt F)) (W b : (⟨S128x128, .f32⟩ : BufTy).Contents (Elt F)) :
    Read.val_main_v8 (F := F) x W b = affineRelu x W b := by
  funext j
  rw [Read.val_main_v8_apply, Read.val_main_v7_apply, Read.val_main_v4_apply, Read.val_main_v2_apply,
    Read.val_main_v0_apply, Read.val_main_v3_apply, Read.val_main_v1_apply, Read.val_main_v6_apply,
    Read.val_main_v5_apply, Read.val_main_call0_v0_apply, Read.val_main_call0_cst_apply,
    x_source, w_source, b_source]
  rfl

end Cert.ReferenceIdeal.Broadcasts

end
-- ==== Proof.lean ====
/-
  A per-feature affine layer with a rectifier, `out[r, i, d] = max (x[r, i] · W[i, d] + b[i, d], 0)` over
  `x : 8192 × 128`, `W, b : 128 × 128`, as a kernel tiled over the rows and as plain array code.

  * Proof/AffineRelu.lean states that function of the three arrays, entry by entry.
  * Proof/KernelRowBlocks.lean: the kernel handles 256 rows per grid point; inside a block it computes the formula
    above from the rows of `x` it was handed and the whole of `W` and `b`; block `t` sits at rows `256·t …` of the
    output; the 32 blocks fill the output. So the kernel's output array is that function of its arguments.
  * Proof/ReferenceBroadcasts.lean: the reference repeats `x` along a new last axis and `W`, `b` along a new first
    axis and combines entry by entry; a repeated array's entry is a copy of one entry of the original. So the
    reference's result is the same function of its arguments.
  Both programs form the product, the sum and the maximum with the same zero in the same order, so the two
  results are equal operation by operation and no property of the extended reals — and hence no finiteness of the
  inputs — is used. The three programs run to the end with their arguments unchanged: for the two kernels this is
  the generated frame, for the reference its generated run with the result forgotten. The idealized kernel is the
  kernel's own text read over the extended reals (nothing was rewritten), so there is nothing to preserve.
-/
import proofs.«150320_j65764539236820_2_alg».proof.Defs
import proofs.«150320_j65764539236820_2_alg».proof.Proof.Gen.Kernel
import proofs.«150320_j65764539236820_2_alg».proof.Proof.Gen.Kernel.Frame
import proofs.«150320_j65764539236820_2_alg».proof.Proof.Gen.KernelIdeal
import proofs.«150320_j65764539236820_2_alg».proof.Proof.Gen.KernelIdeal.Frame
import proofs.«150320_j65764539236820_2_alg».proof.Proof.Gen.KernelIdeal.Value
import proofs.«150320_j65764539236820_2_alg».proof.Proof.Gen.ReferenceIdeal
import proofs.«150320_j65764539236820_2_alg».proof.Proof.Gen.ReferenceIdeal.Run
import proofs.«150320_j65764539236820_2_alg».proof.Proof.Gen.ReferenceIdeal.Read
import proofs.«150320_j65764539236820_2_alg».proof.Proof.Gen.Pre_finite_inputs
import proofs.«150320_j65764539236820_2_alg».proof.Proof.AffineRelu
import proofs.«150320_j65764539236820_2_alg».proof.Proof.KernelRowBlocks
import proofs.«150320_j65764539236820_2_alg».proof.Proof.ReferenceBroadcasts
import Idealize.ShloMosaic.Adequacy
import Idealize.ShloMosaic.Init

noncomputable section

namespace Cert.Proof

open Idealize.ShloMosaic Idealize.SL.Sem

/-- The kernel as printed runs to the end, nothing faulting, its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it says about the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- Run from memories that agree on `x`, `W` and `b`, the kernel's output array and the reference's result are both
    `max (x[r, i] · W[i, d] + b[i, d], 0)` at every entry `(r, i, d)`, and each program leaves its arguments as they were. -/
theorem algebraic : Cert.algebraic_KernelIdeal_ReferenceIdeal := by
  intro m ρ m' ρ' _ hagree
  refine ⟨_, Cert.KernelIdeal.RowBlocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ReferenceIdeal.Broadcasts.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
